-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S1x256 : Shape := ⟨2, ![1, 256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S1x256 : S_.BroadcastsInDim S1x256 (![] : Fin 0 → Fin S1x256.rank)
  reducesTo_S1x256_S_d0_1 : S1x256.ReducesTo [0, 1] S_

variable [Facts]

def fn_part2 {F : FTy → Type} [FloatOps F] (main_arg9 : FVec F S1x256 .f32) (main_v33 : IVec S_ 1) : IVec S_ 1 :=
  let main_v34 : FVec F S1x256 .f32 := Host.absf main_arg9
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  main_v38

def fn_part1 {F : FTy → Type} [FloatOps F] (main_arg6 : FVec F S512x256 .f32) (main_arg7 : FVec F S1x256 .f32) (main_arg8 : FVec F S1x256 .f32) (main_arg9 : FVec F S1x256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S1x256 .f32 := Host.absf main_arg7
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1x256 .f32 := Host.absf main_arg8
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg9 main_v33

def fn {F : FTy → Type} [FloatOps F] (main_arg0 : FVec F S50000x512 .f32) (main_arg1 : IVec S800000 32) (main_arg2 : IVec S800000 32) (main_arg3 : FVec F S800000 .f32) (main_arg4 : FVec F S512x256 .f32) (main_arg5 : FVec F S512x256 .f32) (main_arg6 : FVec F S512x256 .f32) (main_arg7 : FVec F S1x256 .f32) (main_arg8 : FVec F S1x256 .f32) (main_arg9 : FVec F S1x256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg6 main_arg7 main_arg8 main_arg9 main_v13 main_v16
-- ==== Kernel.lean ====
abbrev S50000x512 : Shape := ⟨2, ![50000, 512]⟩
abbrev S800000 : Shape := ⟨1, ![800000]⟩
abbrev S512x256 : Shape := ⟨2, ![512, 256]⟩
abbrev S1x256 : Shape := ⟨2, ![1, 256]⟩
abbrev S_ : Shape := ⟨0, ![]⟩
abbrev S50000x256 : Shape := ⟨2, ![50000, 256]⟩
abbrev S1000x512 : Shape := ⟨2, ![1000, 512]⟩
abbrev S1000x256 : Shape := ⟨2, ![1000, 256]⟩
abbrev S800000x1 : Shape := ⟨2, ![800000, 1]⟩
abbrev S800000x256 : Shape := ⟨2, ![800000, 256]⟩
abbrev S2000x256 : Shape := ⟨2, ![2000, 256]⟩

abbrev nBuf : Space → Nat
  | .hbm => 47
  | .vmem => 26
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S_, .f32⟩
  | .hbm, ⟨14, _⟩ => ⟨S512x256, .f32⟩
  | .hbm, ⟨15, _⟩ => ⟨S512x256, .f32⟩
  | .hbm, ⟨16, _⟩ => ⟨S_, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S512x256, .bf16⟩
  | .hbm, ⟨23, _⟩ => ⟨S512x256, .bf16⟩
  | .hbm, ⟨24, _⟩ => ⟨S512x256, .bf16⟩
  | .hbm, ⟨25, _⟩ => ⟨S50000x256, .f32⟩
  | .hbm, ⟨26, _⟩ => ⟨S50000x256, .f32⟩
  | .hbm, ⟨27, _⟩ => ⟨S50000x256, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x256, .f32⟩
  | .hbm, ⟨37, _⟩ => ⟨S800000x1, .f32⟩
  | .hbm, ⟨38, _⟩ => ⟨S800000x256, .f32⟩
  | .hbm, ⟨39, _⟩ => ⟨S800000x256, .f32⟩
  | .hbm, ⟨40, _⟩ => ⟨S_, .f32⟩
  | .hbm, ⟨41, _⟩ => ⟨S50000x256, .f32⟩
  | .hbm, ⟨42, _⟩ => ⟨S800000x1, .i32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x256, .f32⟩
  | .local _ .vmem, ⟨0, _⟩ => ⟨S1000x512, .f32⟩
  | .local _ .vmem, ⟨1, _⟩ => ⟨S1000x512, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S1x256, .f32⟩
  | .local _ .vmem, ⟨6, _⟩ => ⟨S1x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_cst : Ref sig .tc := ⟨.hbm, 10, rfl⟩
abbrev main_call0_v0 : Ref sig .tc := ⟨.hbm, 11, rfl⟩
abbrev main_v0 : Ref sig .tc := ⟨.hbm, 12, rfl⟩
abbrev main_call1_cst : Ref sig .tc := ⟨.hbm, 13, rfl⟩
abbrev main_call1_v0 : Ref sig .tc := ⟨.hbm, 14, rfl⟩
abbrev main_v1 : Ref sig .tc := ⟨.hbm, 15, rfl⟩
abbrev main_call2_cst : Ref sig .tc := ⟨.hbm, 16, rfl⟩
abbrev main_call2_v0 : Ref sig .tc := ⟨.hbm, 17, rfl⟩
abbrev main_v2 : Ref sig .tc := ⟨.hbm, 18, rfl⟩
abbrev main_call3_cst : Ref sig .tc := ⟨.hbm, 19, rfl⟩
abbrev main_call3_v0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7_0 : Ref sig .tc := ⟨.hbm, 25, rfl⟩
abbrev main_v7_1 : Ref sig .tc := ⟨.hbm, 26, rfl⟩
abbrev main_v7_2 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21_0 : Ref sig .tc := ⟨.hbm, 44, rfl⟩
abbrev main_v21_1 : Ref sig .tc := ⟨.hbm, 45, rfl⟩
abbrev main_v21_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S512x256 : S_.BroadcastsInDim S512x256 (![] : Fin 0 → Fin S512x256.rank)
  bcast_S_S1x256 : S_.BroadcastsInDim S1x256 (![] : Fin 0 → Fin S1x256.rank)
  bitsLt_bf16_f32 : FTy.bits .bf16 < FTy.bits .f32
  inb_S1000x512_S1000x512_0_0 : ∀ a, (![0, 0] : Fin 2 → Nat) a + S1000x512.size a ≤ S1000x512.size a
  h_S1000x512 : 0 < S1000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1000x256_S1000x256_0_0 : ∀ a, (![0, 0] : Fin 2 → Nat) a + S1000x256.size a ≤ S1000x256.size a
  h_S1000x256 : 0 < S1000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  dot_S1000x512_S512x256_S1000x256_1_0_0_1_n_n_wf : DotDims.WF S1000x512 S512x256 S1000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x256.size a ≤ S50000x256.size a
  hwx0_6 : ∀ i : grid0.Coords, EltTy.bits .f32 = 32 ∨ (Rect.block (s := S50000x256) S1000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x256.size a ≤ S50000x256.size a
  hwx0_7 : ∀ i : grid0.Coords, EltTy.bits .f32 = 32 ∨ (Rect.block (s := S50000x256) S1000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x256.size a ≤ S50000x256.size a
  hwx0_8 : ∀ i : grid0.Coords, EltTy.bits .f32 = 32 ∨ (Rect.block (s := S50000x256) S1000x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)

variable [Facts₀]

def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S1000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_2) S1000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v20) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_2) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21_0) S2000x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21_1) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v21_2) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S1x256 : Shape := ⟨2, ![1, 256]⟩
abbrev S_ : Shape := ⟨0, ![]⟩
abbrev S50000x256 : Shape := ⟨2, ![50000, 256]⟩
abbrev S800000x1 : Shape := ⟨2, ![800000, 1]⟩
abbrev S800000x256 : Shape := ⟨2, ![800000, 256]⟩

abbrev nBuf : Space → Nat
  | .hbm => 50
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S_, .f32⟩
  | .hbm, ⟨14, _⟩ => ⟨S512x256, .f32⟩
  | .hbm, ⟨15, _⟩ => ⟨S512x256, .f32⟩
  | .hbm, ⟨16, _⟩ => ⟨S_, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S50000x256, .f32⟩
  | .hbm, ⟨23, _⟩ => ⟨S800000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x256, .f32⟩
  | .hbm, ⟨33, _⟩ => ⟨S800000x256, .f32⟩
  | .hbm, ⟨34, _⟩ => ⟨S800000x256, .f32⟩
  | .hbm, ⟨35, _⟩ => ⟨S_, .f32⟩
  | .hbm, ⟨36, _⟩ => ⟨S50000x256, .f32⟩
  | .hbm, ⟨37, _⟩ => ⟨S800000x1, .i32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S50000x512, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S50000x256, .f32⟩
  | .hbm, ⟨49, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_cst : Ref sig .tc := ⟨.hbm, 10, rfl⟩
abbrev main_call0_v0 : Ref sig .tc := ⟨.hbm, 11, rfl⟩
abbrev main_v0 : Ref sig .tc := ⟨.hbm, 12, rfl⟩
abbrev main_call1_cst : Ref sig .tc := ⟨.hbm, 13, rfl⟩
abbrev main_call1_v0 : Ref sig .tc := ⟨.hbm, 14, rfl⟩
abbrev main_v1 : Ref sig .tc := ⟨.hbm, 15, rfl⟩
abbrev main_call2_cst : Ref sig .tc := ⟨.hbm, 16, rfl⟩
abbrev main_call2_v0 : Ref sig .tc := ⟨.hbm, 17, rfl⟩
abbrev main_v2 : Ref sig .tc := ⟨.hbm, 18, rfl⟩
abbrev main_call3_cst : Ref sig .tc := ⟨.hbm, 19, rfl⟩
abbrev main_call3_v0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩

abbrev nD : Nat := 1
abbrev τ : Topo := Topo.v7x

variable {F : FTy → Type} [FloatOps F]

class Facts₀ : Prop where
  bcast_S_S512x256 : S_.BroadcastsInDim S512x256 (![] : Fin 0 → Fin S512x256.rank)
  bcast_S_S1x256 : S_.BroadcastsInDim S1x256 (![] : Fin 0 → Fin S1x256.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S1x256_S50000x256_0_1 : S1x256.BroadcastsInDim S50000x256 (![0, 1] : Fin 2 → Fin S50000x256.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KernelRun.lean ====
/-
  The idealized kernel's run with its three result arrays named. The program is two grid regions among stretches of host
  operations; the buffer contents at each boundary are a fold from the launch memory (a stretch applies its operations, a
  region leaves each of its arrays at what its write-backs fold to). Every weakly fair execution terminates with every
  unscoped buffer at the last boundary's contents; read at the three result buffers, those contents are what the second
  region's write-backs leave in its three output windows, and read at an argument they are the launch contents.
-/
import proofs.«157194_j31318901522778_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the three result arrays end at what the
    second region's write-backs leave in its output windows 4, 5 and 6, entered at the contents the host operations
    between the regions leave; the ten arguments end as launched. -/
theorem run : θ_run defs (onTc (τ := τ) (main (F := F))) ⟨m, fun _ => 0, ρ⟩ (fun r => ∀ c : Dev nD,
      r.2.mem ((c.tc : Thread nD τ).loc main_v21_0) = (dat1 (V7 m ρ) c).arrAt 4 cfg1.N
      ∧ r.2.mem ((c.tc : Thread nD τ).loc main_v21_1) = (dat1 (V7 m ρ) c).arrAt 5 cfg1.N
      ∧ r.2.mem ((c.tc : Thread nD τ).loc main_v21_2) = (dat1 (V7 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v21_0 (by decide))).trans (W8_arr m ρ c 4),
       (h c _ (mem_uc main_v21_1 (by decide))).trans (W8_arr m ρ c 5),
       (h c _ (mem_uc main_v21_2 (by decide))).trans (W8_arr m ρ c 6),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Named

end
-- ==== Proof.Spec.lean ====
/-
  The mathematics of the layer as whole-array functions over the extended reals, index by index. For a feature table x
  [50000, 512], a weight table w [512, 256] and a row b [1, 256]:
    prod x w    at (r, c) is the sum over k of x (r, k) · w (k, c);
    centre a b  at (r, c) is a (r, c) + b (0, c): the row laid along every row of the table a;
    scope x w b is centre (prod |x| w) b, the absolute value taken entry by entry;
    lower, upper subtract or add a third table entry by entry.
  Each is stated over coordinates; read at an index built from coordinates it is the formula, by definition.
-/
import Idealize.ShloMosaic.Lib.ValueIdx
import Idealize.ShloMosaic.PureOps.Ideal

noncomputable section

namespace Cert.Spec

open Idealize.ShloMosaic Idealize.ShloMosaic.ValueIdx
open scoped BigOperators

/-- The product of a [50000, 512] table with a [512, 256] table. -/
def prod (x : (⟨2, ![50000, 512]⟩ : Shape).Idx → EReal) (w : (⟨2, ![512, 256]⟩ : Shape).Idx → EReal) :
    (⟨2, ![50000, 256]⟩ : Shape).Idx → EReal :=
  fun i => ∑ k : Fin 512, x (ix2 (⟨(i 0).val, idx2_lt0 i⟩ : Fin 50000) k) * w (ix2 k (⟨(i 1).val, idx2_lt1 i⟩ : Fin 256))

theorem prod_ix2 (x : (⟨2, ![50000, 512]⟩ : Shape).Idx → EReal) (w : (⟨2, ![512, 256]⟩ : Shape).Idx → EReal)
    (r : Fin 50000) (c : Fin 256) : prod x w (ix2 r c) = ∑ k : Fin 512, x (ix2 r k) * w (ix2 k c) := rfl

/-- A table plus a row laid along every row of it. -/
def centre (a : (⟨2, ![50000, 256]⟩ : Shape).Idx → EReal) (b : (⟨2, ![1, 256]⟩ : Shape).Idx → EReal) :
    (⟨2, ![50000, 256]⟩ : Shape).Idx → EReal :=
  fun i => a i + b (ix2 (0 : Fin 1) (⟨(i 1).val, idx2_lt1 i⟩ : Fin 256))

theorem centre_ix2 (a : (⟨2, ![50000, 256]⟩ : Shape).Idx → EReal) (b : (⟨2, ![1, 256]⟩ : Shape).Idx → EReal)
    (r : Fin 50000) (c : Fin 256) : centre a b (ix2 r c) = a (ix2 r c) + b (ix2 (0 : Fin 1) c) := rfl

/-- The product of the table of absolute values with a weight table, plus a row laid along every row. -/
def scope (x : FVec Ideal ⟨2, ![50000, 512]⟩ .f32) (w : (⟨2, ![512, 256]⟩ : Shape).Idx → EReal)
    (b : (⟨2, ![1, 256]⟩ : Shape).Idx → EReal) : (⟨2, ![50000, 256]⟩ : Shape).Idx → EReal :=
  centre (prod (absf x) w) b

theorem scope_ix2 (x : FVec Ideal ⟨2, ![50000, 512]⟩ .f32) (w : (⟨2, ![512, 256]⟩ : Shape).Idx → EReal)
    (b : (⟨2, ![1, 256]⟩ : Shape).Idx → EReal) (r : Fin 50000) (c : Fin 256) :
    scope x w b (ix2 r c) = (∑ k : Fin 512, ((absf x : FVec Ideal ⟨2, ![50000, 512]⟩ .f32) (ix2 r k) : EReal) * w (ix2 k c)) + b (ix2 (0 : Fin 1) c) := rfl

/-- The centre minus a table. -/
def lower (a : (⟨2, ![50000, 256]⟩ : Shape).Idx → EReal) (b : (⟨2, ![1, 256]⟩ : Shape).Idx → EReal)
    (l : (⟨2, ![50000, 256]⟩ : Shape).Idx → EReal) : (⟨2, ![50000, 256]⟩ : Shape).Idx → EReal :=
  fun i => centre a b i - l i

theorem lower_ix2 (a : (⟨2, ![50000, 256]⟩ : Shape).Idx → EReal) (b : (⟨2, ![1, 256]⟩ : Shape).Idx → EReal)
    (l : (⟨2, ![50000, 256]⟩ : Shape).Idx → EReal) (r : Fin 50000) (c : Fin 256) :
    lower a b l (ix2 r c) = (a (ix2 r c) + b (ix2 (0 : Fin 1) c)) - l (ix2 r c) := rfl

/-- The centre plus a table. -/
def upper (a : (⟨2, ![50000, 256]⟩ : Shape).Idx → EReal) (b : (⟨2, ![1, 256]⟩ : Shape).Idx → EReal)
    (u : (⟨2, ![50000, 256]⟩ : Shape).Idx → EReal) : (⟨2, ![50000, 256]⟩ : Shape).Idx → EReal :=
  fun i => centre a b i + u i

theorem upper_ix2 (a : (⟨2, ![50000, 256]⟩ : Shape).Idx → EReal) (b : (⟨2, ![1, 256]⟩ : Shape).Idx → EReal)
    (u : (⟨2, ![50000, 256]⟩ : Shape).Idx → EReal) (r : Fin 50000) (c : Fin 256) :
    upper a b u (ix2 r c) = (a (ix2 r c) + b (ix2 (0 : Fin 1) c)) + u (ix2 r c) := rfl

end Cert.Spec

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.DenseBlocks.lean ====
/-
  The first grid region (50 points, 1000 rows each) read as whole arrays. At the contents the region is entered with, write x
  for the feature table [50000, 512], w, wl, wr for the three weight tables [512, 256] and bl, br for the two bias rows
  [1, 256]. A point t loads rows 1000 t … 1000 t + 999 of x and the whole of the other five, and stores into the same rows of
  its three outputs the matrix products x·w, |x|·wl + bl and |x|·wr + br, each product accumulated from zero (rounding to a
  narrower float format is the identity on extended reals). Entry (p, q) of a product of the loaded rows is the sum over k of
  row p at k times column q at k, so it is entry (1000 t + p, q) of the product of the whole tables; the row blocks tile the
  50000 rows, so each output array ends holding the whole-table function at every index.
-/
import proofs.«157194_j31318901522778_1_alg».proof.Proof.Gen.KernelIdeal.Frame
import proofs.«157194_j31318901522778_1_alg».proof.Proof.Spec
import proofs.«157194_j31318901522778_1_alg».proof.Proof.LibDenseRows
import Idealize.ShloMosaic.Lib.ValueIdx
import Idealize.ShloMosaic.Lib.ValueLayout
import Idealize.ShloMosaic.Lib.Pipeline.Value

set_option maxRecDepth 16384

noncomputable section

namespace Cert.KernelIdeal.Dense

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

/-! ## The contraction's dimension numbers: the left operand's row and the right operand's column stay in place -/

theorem lhs_row (j : S1000x256.Idx) (k : dot_S1000x512_S512x256_S1000x256_1_0_0_1_n_n.contr.Idx) :
    (dot_S1000x512_S512x256_S1000x256_1_0_0_1_n_n.lhsIdx j k (0 : Fin 2)).val = (j (0 : Fin 2)).val := by
  unfold DotDims.lhsIdx
  rw [dif_neg (show ¬(0 : Fin S1000x512.rank) ∈ dot_S1000x512_S512x256_S1000x256_1_0_0_1_n_n.lhsBatch by decide), dif_pos (show (0 : Fin S1000x512.rank) ∈ dot_S1000x512_S512x256_S1000x256_1_0_0_1_n_n.lhsNonContracting by decide)]
  rfl

theorem rhs_col (j : S1000x256.Idx) (k : dot_S1000x512_S512x256_S1000x256_1_0_0_1_n_n.contr.Idx) :
    (dot_S1000x512_S512x256_S1000x256_1_0_0_1_n_n.rhsIdx j k (1 : Fin 2)).val = (j (1 : Fin 2)).val := by
  unfold DotDims.rhsIdx
  rw [dif_neg (show ¬(1 : Fin S512x256.rank) ∈ dot_S1000x512_S512x256_S1000x256_1_0_0_1_n_n.rhsBatch by decide), dif_pos (show (1 : Fin S512x256.rank) ∈ dot_S1000x512_S512x256_S1000x256_1_0_0_1_n_n.rhsNonContracting by decide)]
  rfl

/-- A product of 1000 loaded rows with a weight table, accumulated from zero, at (p, q). -/
theorem rows_times (A : FVec Ideal S1000x512 .bf16) (W : FVec Ideal S512x256 .bf16) (p : Fin 1000) (q : Fin 256) :
    matmul dot_S1000x512_S512x256_S1000x256_1_0_0_1_n_n none A W (constant (F := Ideal) S1000x256 .f32 0x00000000#32) (ix2 p q)
      = ∑ k : Fin 512, A (ix2 p k) * W (ix2 k q) :=
  Cert.DenseRows.matmul_zero_plain_apply dot_S1000x512_S512x256_S1000x256_1_0_0_1_n_n rfl rfl rfl rfl lhs_row rhs_col A W p q

/-! ## What one point computes, entry by entry -/

/-- The first store: the loaded rows times the first weight table. -/
theorem pay_prod (v0 : Vec Ideal S1000x512 .f32) (v4 : Vec Ideal S512x256 .bf16) (p : Fin 1000) (q : Fin 256) :
    k0_pay2 v0 v4 (ix2 p q) = ∑ k : Fin 512, v0 (ix2 p k) * v4 (ix2 k q) := by
  unfold k0_pay2
  rw [shapeCast_self]
  exact rows_times (truncf .bf16 v0 bitsLt_bf16_f32) v4 p q

/-- The second store: the absolute values of the loaded rows times the second weight table, plus its bias row. -/
theorem pay_left (v0 : Vec Ideal S1000x512 .f32) (v6 : Vec Ideal S512x256 .bf16) (v13 : Vec Ideal S1x256 .f32) (p : Fin 1000) (q : Fin 256) :
    k0_pay3 v0 v6 v13 (ix2 p q)
      = (∑ k : Fin 512, ((absf v0 : FVec Ideal S1000x512 .f32) (ix2 p k) : EReal) * (v6 (ix2 k q) : EReal)) + (v13 (ix2 (0 : Fin 1) q) : EReal) := by
  unfold k0_pay3 k0_pay1
  rw [addf_apply, shapeCast_self, shapeCast_self, broadcastTo_1b_ab_apply]
  exact congrArg (· + v13 (ix2 (0 : Fin 1) q)) (rows_times (truncf .bf16 (absf v0) bitsLt_bf16_f32) v6 p q)

/-- The third store: the same with the third weight table and its bias row. -/
theorem pay_right (v0 : Vec Ideal S1000x512 .f32) (v8 : Vec Ideal S512x256 .bf16) (v19 : Vec Ideal S1x256 .f32) (p : Fin 1000) (q : Fin 256) :
    k0_pay4 v0 v8 v19 (ix2 p q)
      = (∑ k : Fin 512, ((absf v0 : FVec Ideal S1000x512 .f32) (ix2 p k) : EReal) * (v8 (ix2 k q) : EReal)) + (v19 (ix2 (0 : Fin 1) q) : EReal) := by
  unfold k0_pay4 k0_pay1
  rw [addf_apply, shapeCast_self, shapeCast_self, broadcastTo_1b_ab_apply]
  exact congrArg (· + v19 (ix2 (0 : Fin 1) q)) (rows_times (truncf .bf16 (absf v0) bitsLt_bf16_f32) v8 p q)

/-! ## Where each window's block sits -/

theorem hz : (![0, 0] : Fin 2 → Nat) = fun _ => 0 := funext fun a => by fin_cases a <;> rfl

theorem lt50 (t : Fin cfg0.N) : t.val < 50 := lt_of_lt_of_eq t.isLt N_0

/-- The feature table and the three outputs take row block t at point t; the weight tables and bias rows are one block each. -/
theorem idx0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

variable (V : (c : Dev nD) → (b : Ref sig .tc) → Buf (Elt Ideal) ((c : Thread nD τ).loc b))

/-- Row p of point t's block of the feature table is row 1000 t + p of the table. -/
theorem rows_x (c : Dev nD) (t : Fin cfg0.N) (p : Fin 1000) (k : Fin 512) (hp : 1000 * t.val + p.val < 50000) :
    (iblk0 V c 0 t : Vec Ideal S1000x512 .f32) (ix2 p k) = (V c main_arg0 : S50000x512.Idx → EReal) (ix2 ⟨1000 * t.val + p.val, hp⟩ k) := by
  obtain ⟨⟨e0, e1⟩, -⟩ := idx0 t
  unfold iblk0
  rw [View.read_apply]
  show V c main_arg0 _ = V c main_arg0 _
  refine congrArg (V c main_arg0) (funext fun a => Fin.ext ?_)
  match a with
  | ⟨0, _⟩ => show win0_0.index t (0 : Fin 2) * 1000 + 1 * p.val = 1000 * t.val + p.val; rw [e0]; omega
  | ⟨1, _⟩ => show win0_0.index t (1 : Fin 2) * 512 + 1 * k.val = k.val; rw [e1]; omega

/-- The first weight table's one block is the table. -/
theorem whole_w (c : Dev nD) (t : Fin cfg0.N) (k : Fin 512) (q : Fin 256) :
    (iblk0 V c 1 t : Vec Ideal S512x256 .bf16) (ix2 k q) = (V c main_v4 : S512x256.Idx → EReal) (ix2 k q) := by
  obtain ⟨-, ⟨e0, e1⟩, -⟩ := idx0 t
  unfold iblk0
  rw [View.read_apply]
  show V c main_v4 _ = V c main_v4 _
  refine congrArg (V c main_v4) (funext fun a => Fin.ext ?_)
  match a with
  | ⟨0, _⟩ => show win0_1.index t (0 : Fin 2) * 512 + 1 * k.val = k.val; rw [e0]; omega
  | ⟨1, _⟩ => show win0_1.index t (1 : Fin 2) * 256 + 1 * q.val = q.val; rw [e1]; omega

/-- The second weight table's one block is the table. -/
theorem whole_wl (c : Dev nD) (t : Fin cfg0.N) (k : Fin 512) (q : Fin 256) :
    (iblk0 V c 2 t : Vec Ideal S512x256 .bf16) (ix2 k q) = (V c main_v5 : S512x256.Idx → EReal) (ix2 k q) := by
  obtain ⟨-, -, ⟨e0, e1⟩, -⟩ := idx0 t
  unfold iblk0
  rw [View.read_apply]
  show V c main_v5 _ = V c main_v5 _
  refine congrArg (V c main_v5) (funext fun a => Fin.ext ?_)
  match a with
  | ⟨0, _⟩ => show win0_2.index t (0 : Fin 2) * 512 + 1 * k.val = k.val; rw [e0]; omega
  | ⟨1, _⟩ => show win0_2.index t (1 : Fin 2) * 256 + 1 * q.val = q.val; rw [e1]; omega

/-- The third weight table's one block is the table. -/
theorem whole_wr (c : Dev nD) (t : Fin cfg0.N) (k : Fin 512) (q : Fin 256) :
    (iblk0 V c 3 t : Vec Ideal S512x256 .bf16) (ix2 k q) = (V c main_v6 : S512x256.Idx → EReal) (ix2 k q) := by
  obtain ⟨-, -, -, ⟨e0, e1⟩, -⟩ := idx0 t
  unfold iblk0
  rw [View.read_apply]
  show V c main_v6 _ = V c main_v6 _
  refine congrArg (V c main_v6) (funext fun a => Fin.ext ?_)
  match a with
  | ⟨0, _⟩ => show win0_3.index t (0 : Fin 2) * 512 + 1 * k.val = k.val; rw [e0]; omega
  | ⟨1, _⟩ => show win0_3.index t (1 : Fin 2) * 256 + 1 * q.val = q.val; rw [e1]; omega

/-- The left bias row's one block is the row. -/
theorem row_bl (c : Dev nD) (t : Fin cfg0.N) (q : Fin 256) :
    (iblk0 V c 4 t : Vec Ideal S1x256 .f32) (ix2 (0 : Fin 1) q) = (V c main_v2 : S1x256.Idx → EReal) (ix2 (0 : Fin 1) q) := by
  obtain ⟨-, -, -, -, ⟨e0, e1⟩, -⟩ := idx0 t
  unfold iblk0
  rw [View.read_apply]
  show V c main_v2 _ = V c main_v2 _
  refine congrArg (V c main_v2) (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 256 + 1 * q.val = q.val; rw [e1]; omega

/-- The right bias row's one block is the row. -/
theorem row_br (c : Dev nD) (t : Fin cfg0.N) (q : Fin 256) :
    (iblk0 V c 5 t : Vec Ideal S1x256 .f32) (ix2 (0 : Fin 1) q) = (V c main_v3 : S1x256.Idx → EReal) (ix2 (0 : Fin 1) q) := by
  obtain ⟨-, -, -, -, -, ⟨e0, e1⟩, -⟩ := idx0 t
  unfold iblk0
  rw [View.read_apply]
  show V c main_v3 _ = V c main_v3 _
  refine congrArg (V c main_v3) (funext fun a => Fin.ext ?_)
  match a with
  | ⟨0, _⟩ => show win0_5.index t (0 : Fin 2) * 1 + 1 * (0 : Fin 1).val = (0 : Fin 1).val; rw [e0]; rfl
  | ⟨1, _⟩ => show win0_5.index t (1 : Fin 2) * 256 + 1 * q.val = q.val; rw [e1]; omega

/-! ## The first output: the product with the first weight table -/

/-- Entry (p, q) of point t's block of the first output is entry (1000 t + p, q) of the array. -/
theorem emb6 (t : Fin cfg0.N) (p : Fin 1000) (q : Fin 256) (hp : 1000 * t.val + p.val < 50000) :
    ((cfg0.win 6).blk t).view.emb (ix2 p q) = (ix2 ⟨1000 * t.val + p.val, hp⟩ q : S50000x256.Idx) := by
  obtain ⟨-, -, -, -, -, -, ⟨e0, e1⟩, -⟩ := idx0 t
  refine funext fun a => Fin.ext ?_
  match a with
  | ⟨0, _⟩ => show win0_6.index t (0 : Fin 2) * 1000 + 1 * p.val = 1000 * t.val + p.val; rw [e0]; omega
  | ⟨1, _⟩ => show win0_6.index t (1 : Fin 2) * 256 + 1 * q.val = q.val; rw [e1]; omega

/-- What point t writes back to the first output is its row block of the product of the whole tables. -/
theorem flushed6_eq (c : Dev nD) (t : Fin cfg0.N) :
    (dat0 V c).flushed 6 t = ((cfg0.win 6).blk t).view.read (Elt Ideal) (prod (V c main_arg0) (V c main_v4)) := by
  show (cfg0.win 6).cut (grid0.coords t) ((dat0 V c).after 6 t) = _
  rw [after0_6]
  unfold out0_6
  rw [View.canon_unit_zero hz]
  simp only [View.ld_unit_zero (S := S1000x512) hz, View.ld_unit_zero (S := S512x256) hz]
  funext j
  obtain ⟨p, q, rfl⟩ : ∃ (p : Fin 1000) (q : Fin 256), j = ix2 p q := ⟨j 0, j 1, eq_ix2 j⟩
  have hp : 1000 * t.val + p.val < 50000 := by have := lt50 t; have := p.isLt; omega
  refine (pay_prod _ _ p q).trans ?_
  rw [View.read_apply, emb6 t p q hp, prod_ix2]
  refine Finset.sum_congr rfl fun k _ => ?_
  rw [rows_x V c t p k hp, whole_w V c t k q]

theorem mem_blk6 (t : Fin cfg0.N) (i : S50000x256.Idx) :
    i ∈ ((cfg0.win 6).blk t).view.set ↔ ∀ a : Fin 2, win0_6.index t a * S1000x256.size a ≤ (i a).val ∧ (i a).val < win0_6.index t a * S1000x256.size a + S1000x256.size a := by
  show i ∈ ((View.whole main_v7_0).slice (win0_6.rect t)).set ↔ _
  rw [View.set_slice_whole, Rect.mem_set_unit]
  exact Iff.rfl

/-- Row i₀ of the first output lies in the block of point i₀ / 1000. -/
theorem cover6 (i : S50000x256.Idx) : ∃ t : Fin cfg0.N, (cfg0.win 6).flush t = true ∧ i ∈ ((cfg0.win 6).blk t).view.set := by
  have h0 : (i 0).val < 50000 := (i 0).isLt
  have h1 : (i 1).val < 256 := (i 1).isLt
  have ht : (i 0).val / 1000 < cfg0.N := by have e : cfg0.N = 50 := N_0; omega
  obtain ⟨-, -, -, -, -, -, ⟨e0, e1⟩, -⟩ := idx0 ⟨(i 0).val / 1000, ht⟩
  refine ⟨⟨(i 0).val / 1000, ht⟩, flush0_6 _, ?_⟩
  rw [mem_blk6]
  intro a
  match a with
  | ⟨0, _⟩ =>
    show win0_6.index ⟨(i 0).val / 1000, ht⟩ (0 : Fin 2) * 1000 ≤ (i 0).val ∧ (i 0).val < win0_6.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_6.index ⟨(i 0).val / 1000, ht⟩ (1 : Fin 2) * 256 ≤ (i 1).val ∧ (i 1).val < win0_6.index ⟨(i 0).val / 1000, ht⟩ (1 : Fin 2) * 256 + 256
    rw [e1]; omega

/-- The first output array ends holding the product of the feature table with the first weight table. -/
theorem final6 (c : Dev nD) : (dat0 V c).arrAt 6 cfg0.N = prod (V c main_arg0) (V c main_v4) :=
  (dat0 V c).arrAt_eq_of_cover 6 _ (fun t _ => flushed6_eq V c t) cover6

/-! ## The second output: the left scope -/

/-- The second output's blocks sit on the same rows as the first's. -/
theorem emb7 (t : Fin cfg0.N) (p : Fin 1000) (q : Fin 256) (hp : 1000 * t.val + p.val < 50000) :
    ((cfg0.win 7).blk t).view.emb (ix2 p q) = (ix2 ⟨1000 * t.val + p.val, hp⟩ q : S50000x256.Idx) := by
  obtain ⟨-, -, -, -, -, -, -, ⟨e0, e1⟩, -⟩ := idx0 t
  refine funext fun a => Fin.ext ?_
  match a with
  | ⟨0, _⟩ => show win0_7.index t (0 : Fin 2) * 1000 + 1 * p.val = 1000 * t.val + p.val; rw [e0]; omega
  | ⟨1, _⟩ => show win0_7.index t (1 : Fin 2) * 256 + 1 * q.val = q.val; rw [e1]; omega

/-- One summand of a scope entry: the absolute value of the loaded row's entry is the absolute value of the table's, and
    the weight is the table's. -/
theorem summand_left (c : Dev nD) (t : Fin cfg0.N) (p : Fin 1000) (k : Fin 512) (q : Fin 256) (hp : 1000 * t.val + p.val < 50000) :
    ((absf (iblk0 V c 0 t : Vec Ideal S1000x512 .f32) : FVec Ideal S1000x512 .f32) (ix2 p k) : EReal) * ((iblk0 V c 2 t : Vec Ideal S512x256 .bf16) (ix2 k q) : EReal)
      = ((absf (V c main_arg0 : FVec Ideal S50000x512 .f32) : FVec Ideal S50000x512 .f32) (ix2 ⟨1000 * t.val + p.val, hp⟩ k) : EReal) * ((V c main_v5 : S512x256.Idx → EReal) (ix2 k q)) := by
  have e1 : ((absf (iblk0 V c 0 t : Vec Ideal S1000x512 .f32) : FVec Ideal S1000x512 .f32) (ix2 p k) : EReal)
      = ((absf (V c main_arg0 : FVec Ideal S50000x512 .f32) : FVec Ideal S50000x512 .f32) (ix2 ⟨1000 * t.val + p.val, hp⟩ k) : EReal) :=
    congrArg (FloatOps.absf (F := Ideal) (φ := .f32)) (rows_x V c t p k hp)
  rw [e1, whole_wl V c t k q]

/-- What point t writes back to the second output is its row block of the left scope of the whole tables. -/
theorem flushed7_eq (c : Dev nD) (t : Fin cfg0.N) :
    (dat0 V c).flushed 7 t = ((cfg0.win 7).blk t).view.read (Elt Ideal) (scope (V c main_arg0) (V c main_v5) (V c main_v2)) := by
  show (cfg0.win 7).cut (grid0.coords t) ((dat0 V c).after 7 t) = _
  rw [after0_7]
  unfold out0_7
  rw [View.canon_unit_zero hz]
  simp only [View.ld_unit_zero (S := S1000x512) hz, View.ld_unit_zero (S := S512x256) hz, View.ld_unit_zero (S := S1x256) hz]
  funext j
  obtain ⟨p, q, rfl⟩ : ∃ (p : Fin 1000) (q : Fin 256), j = ix2 p q := ⟨j 0, j 1, eq_ix2 j⟩
  have hp : 1000 * t.val + p.val < 50000 := by have := lt50 t; have := p.isLt; omega
  refine (pay_left _ _ _ p q).trans ?_
  rw [View.read_apply, emb7 t p q hp, scope_ix2, row_bl V c t q]
  exact congrArg (· + (V c main_v2 : S1x256.Idx → EReal) (ix2 (0 : Fin 1) q)) (Finset.sum_congr rfl fun k _ => summand_left V c t p k q hp)

theorem mem_blk7 (t : Fin cfg0.N) (i : S50000x256.Idx) :
    i ∈ ((cfg0.win 7).blk t).view.set ↔ ∀ a : Fin 2, win0_7.index t a * S1000x256.size a ≤ (i a).val ∧ (i a).val < win0_7.index t a * S1000x256.size a + S1000x256.size a := by
  show i ∈ ((View.whole main_v7_1).slice (win0_7.rect t)).set ↔ _
  rw [View.set_slice_whole, Rect.mem_set_unit]
  exact Iff.rfl

/-- Row i₀ of the second output lies in the block of point i₀ / 1000. -/
theorem cover7 (i : S50000x256.Idx) : ∃ t : Fin cfg0.N, (cfg0.win 7).flush t = true ∧ i ∈ ((cfg0.win 7).blk t).view.set := by
  have h0 : (i 0).val < 50000 := (i 0).isLt
  have h1 : (i 1).val < 256 := (i 1).isLt
  have ht : (i 0).val / 1000 < cfg0.N := by have e : cfg0.N = 50 := N_0; omega
  obtain ⟨-, -, -, -, -, -, -, ⟨e0, e1⟩, -⟩ := idx0 ⟨(i 0).val / 1000, ht⟩
  refine ⟨⟨(i 0).val / 1000, ht⟩, flush0_7 _, ?_⟩
  rw [mem_blk7]
  intro a
  match a with
  | ⟨0, _⟩ =>
    show win0_7.index ⟨(i 0).val / 1000, ht⟩ (0 : Fin 2) * 1000 ≤ (i 0).val ∧ (i 0).val < win0_7.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_7.index ⟨(i 0).val / 1000, ht⟩ (1 : Fin 2) * 256 ≤ (i 1).val ∧ (i 1).val < win0_7.index ⟨(i 0).val / 1000, ht⟩ (1 : Fin 2) * 256 + 256
    rw [e1]; omega

/-- The second output array ends holding the left scope: |x| times the second weight table plus the left bias row. -/
theorem final7 (c : Dev nD) : (dat0 V c).arrAt 7 cfg0.N = scope (V c main_arg0) (V c main_v5) (V c main_v2) :=
  (dat0 V c).arrAt_eq_of_cover 7 _ (fun t _ => flushed7_eq V c t) cover7

/-! ## The third output: the right scope -/

/-- The third output's blocks sit on the same rows. -/
theorem emb8 (t : Fin cfg0.N) (p : Fin 1000) (q : Fin 256) (hp : 1000 * t.val + p.val < 50000) :
    ((cfg0.win 8).blk t).view.emb (ix2 p q) = (ix2 ⟨1000 * t.val + p.val, hp⟩ q : S50000x256.Idx) := by
  obtain ⟨-, -, -, -, -, -, -, -, ⟨e0, e1⟩⟩ := idx0 t
  refine funext fun a => Fin.ext ?_
  match a with
  | ⟨0, _⟩ => show win0_8.index t (0 : Fin 2) * 1000 + 1 * p.val = 1000 * t.val + p.val; rw [e0]; omega
  | ⟨1, _⟩ => show win0_8.index t (1 : Fin 2) * 256 + 1 * q.val = q.val; rw [e1]; omega

/-- One summand of a right scope entry, with the third weight table. -/
theorem summand_right (c : Dev nD) (t : Fin cfg0.N) (p : Fin 1000) (k : Fin 512) (q : Fin 256) (hp : 1000 * t.val + p.val < 50000) :
    ((absf (iblk0 V c 0 t : Vec Ideal S1000x512 .f32) : FVec Ideal S1000x512 .f32) (ix2 p k) : EReal) * ((iblk0 V c 3 t : Vec Ideal S512x256 .bf16) (ix2 k q) : EReal)
      = ((absf (V c main_arg0 : FVec Ideal S50000x512 .f32) : FVec Ideal S50000x512 .f32) (ix2 ⟨1000 * t.val + p.val, hp⟩ k) : EReal) * ((V c main_v6 : S512x256.Idx → EReal) (ix2 k q)) := by
  have e1 : ((absf (iblk0 V c 0 t : Vec Ideal S1000x512 .f32) : FVec Ideal S1000x512 .f32) (ix2 p k) : EReal)
      = ((absf (V c main_arg0 : FVec Ideal S50000x512 .f32) : FVec Ideal S50000x512 .f32) (ix2 ⟨1000 * t.val + p.val, hp⟩ k) : EReal) :=
    congrArg (FloatOps.absf (F := Ideal) (φ := .f32)) (rows_x V c t p k hp)
  rw [e1, whole_wr V c t k q]

/-- What point t writes back to the third output is its row block of the right scope of the whole tables. -/
theorem flushed8_eq (c : Dev nD) (t : Fin cfg0.N) :
    (dat0 V c).flushed 8 t = ((cfg0.win 8).blk t).view.read (Elt Ideal) (scope (V c main_arg0) (V c main_v6) (V c main_v3)) := by
  show (cfg0.win 8).cut (grid0.coords t) ((dat0 V c).after 8 t) = _
  rw [after0_8]
  unfold out0_8
  rw [View.canon_unit_zero hz]
  simp only [View.ld_unit_zero (S := S1000x512) hz, View.ld_unit_zero (S := S512x256) hz, View.ld_unit_zero (S := S1x256) hz]
  funext j
  obtain ⟨p, q, rfl⟩ : ∃ (p : Fin 1000) (q : Fin 256), j = ix2 p q := ⟨j 0, j 1, eq_ix2 j⟩
  have hp : 1000 * t.val + p.val < 50000 := by have := lt50 t; have := p.isLt; omega
  refine (pay_right _ _ _ p q).trans ?_
  rw [View.read_apply, emb8 t p q hp, scope_ix2, row_br V c t q]
  exact congrArg (· + (V c main_v3 : S1x256.Idx → EReal) (ix2 (0 : Fin 1) q)) (Finset.sum_congr rfl fun k _ => summand_right V c t p k q hp)

theorem mem_blk8 (t : Fin cfg0.N) (i : S50000x256.Idx) :
    i ∈ ((cfg0.win 8).blk t).view.set ↔ ∀ a : Fin 2, win0_8.index t a * S1000x256.size a ≤ (i a).val ∧ (i a).val < win0_8.index t a * S1000x256.size a + S1000x256.size a := by
  show i ∈ ((View.whole main_v7_2).slice (win0_8.rect t)).set ↔ _
  rw [View.set_slice_whole, Rect.mem_set_unit]
  exact Iff.rfl

/-- Row i₀ of the third output lies in the block of point i₀ / 1000. -/
theorem cover8 (i : S50000x256.Idx) : ∃ t : Fin cfg0.N, (cfg0.win 8).flush t = true ∧ i ∈ ((cfg0.win 8).blk t).view.set := by
  have h0 : (i 0).val < 50000 := (i 0).isLt
  have h1 : (i 1).val < 256 := (i 1).isLt
  have ht : (i 0).val / 1000 < cfg0.N := by have e : cfg0.N = 50 := N_0; omega
  obtain ⟨-, -, -, -, -, -, -, -, ⟨e0, e1⟩⟩ := idx0 ⟨(i 0).val / 1000, ht⟩
  refine ⟨⟨(i 0).val / 1000, ht⟩, flush0_8 _, ?_⟩
  rw [mem_blk8]
  intro a
  match a with
  | ⟨0, _⟩ =>
    show win0_8.index ⟨(i 0).val / 1000, ht⟩ (0 : Fin 2) * 1000 ≤ (i 0).val ∧ (i 0).val < win0_8.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_8.index ⟨(i 0).val / 1000, ht⟩ (1 : Fin 2) * 256 ≤ (i 1).val ∧ (i 1).val < win0_8.index ⟨(i 0).val / 1000, ht⟩ (1 : Fin 2) * 256 + 256
    rw [e1]; omega

/-- The third output array ends holding the right scope: |x| times the third weight table plus the right bias row. -/
theorem final8 (c : Dev nD) : (dat0 V c).arrAt 8 cfg0.N = scope (V c main_arg0) (V c main_v6) (V c main_v3) :=
  (dat0 V c).arrAt_eq_of_cover 8 _ (fun t _ => flushed8_eq V c t) cover8

end Cert.KernelIdeal.Dense

end
-- ==== Proof.Combine.lean ====
/-
  The second grid region (25 points, 2000 rows each) read as whole arrays. At the contents the region is entered with, write
  a for the aggregated table [50000, 256], l and r for the two scope tables and b for the bias row [1, 256]. A point t loads
  rows 2000 t … 2000 t + 1999 of a, l and r and the whole row b, and stores, entry by entry, a + b (the bias laid along every
  row), (a + b) − l and (a + b) + r into the same rows of its three outputs. The row blocks tile the 50000 rows, so each output
  array ends holding that function at every index: the centre, the lower and the upper table.
-/
import proofs.«157194_j31318901522778_1_alg».proof.Proof.Gen.KernelIdeal.Frame
import proofs.«157194_j31318901522778_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Combine

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-! ## What one point computes, entry by entry -/

/-- The first store: the loaded rows plus the bias row. -/
theorem pay_centre (x0 : Vec Ideal S2000x256 .f32) (x3 : Vec Ideal S1x256 .f32) (p : Fin 2000) (q : Fin 256) :
    k1_pay1 x0 x3 (ix2 p q) = x0 (ix2 p q) + x3 (ix2 (0 : Fin 1) q) := by
  unfold k1_pay1
  rw [addf_apply, shapeCast_self, broadcastTo_1b_ab_apply]

/-- The second store: that, minus the left scope's rows. -/
theorem pay_lower (x0 : Vec Ideal S2000x256 .f32) (x3 : Vec Ideal S1x256 .f32) (x1 : Vec Ideal S2000x256 .f32) (p : Fin 2000) (q : Fin 256) :
    k1_pay2 x0 x3 x1 (ix2 p q) = (x0 (ix2 p q) + x3 (ix2 (0 : Fin 1) q)) - x1 (ix2 p q) := by
  unfold k1_pay2
  rw [subf_apply, shapeCast_self, pay_centre]

/-- The third store: the first, plus the right scope's rows. -/
theorem pay_upper (x0 : Vec Ideal S2000x256 .f32) (x3 : Vec Ideal S1x256 .f32) (x2 : Vec Ideal S2000x256 .f32) (p : Fin 2000) (q : Fin 256) :
    k1_pay3 x0 x3 x2 (ix2 p q) = (x0 (ix2 p q) + x3 (ix2 (0 : Fin 1) q)) + x2 (ix2 p q) := by
  unfold k1_pay3
  rw [addf_apply, shapeCast_self, pay_centre]

/-! ## Where each window's block sits -/

theorem hz : (![0, 0] : Fin 2 → Nat) = fun _ => 0 := funext fun a => by fin_cases a <;> rfl

theorem lt25 (t : Fin cfg1.N) : t.val < 25 := lt_of_lt_of_eq t.isLt N_1

/-- The three row-blocked inputs and the three outputs take row block t at point t; the bias row is its one block. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

variable (V : (c : Dev nD) → (b : Ref sig .tc) → Buf (Elt Ideal) ((c : Thread nD τ).loc b))

/-- Row p of point t's block of the aggregated table is row 2000 t + p of the table. -/
theorem rows_agg (c : Dev nD) (t : Fin cfg1.N) (p : Fin 2000) (q : Fin 256) (hp : 2000 * t.val + p.val < 50000) :
    (iblk1 V c 0 t : Vec Ideal S2000x256 .f32) (ix2 p q) = (V c main_v20 : S50000x256.Idx → EReal) (ix2 ⟨2000 * t.val + p.val, hp⟩ q) := by
  obtain ⟨⟨e0, e1⟩, -⟩ := idx1 t
  unfold iblk1
  rw [View.read_apply]
  show V c main_v20 _ = V c main_v20 _
  refine congrArg (V c main_v20) (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 256 + 1 * q.val = q.val; rw [e1]; omega

/-- The same rows of the left scope table. -/
theorem rows_left (c : Dev nD) (t : Fin cfg1.N) (p : Fin 2000) (q : Fin 256) (hp : 2000 * t.val + p.val < 50000) :
    (iblk1 V c 1 t : Vec Ideal S2000x256 .f32) (ix2 p q) = (V c main_v7_1 : S50000x256.Idx → EReal) (ix2 ⟨2000 * t.val + p.val, hp⟩ q) := by
  obtain ⟨-, ⟨e0, e1⟩, -⟩ := idx1 t
  unfold iblk1
  rw [View.read_apply]
  show V c main_v7_1 _ = V c main_v7_1 _
  refine congrArg (V c main_v7_1) (funext fun a => Fin.ext ?_)
  match a with
  | ⟨0, _⟩ => show win1_1.index t (0 : Fin 2) * 2000 + 1 * p.val = 2000 * t.val + p.val; rw [e0]; omega
  | ⟨1, _⟩ => show win1_1.index t (1 : Fin 2) * 256 + 1 * q.val = q.val; rw [e1]; omega

/-- The same rows of the right scope table. -/
theorem rows_right (c : Dev nD) (t : Fin cfg1.N) (p : Fin 2000) (q : Fin 256) (hp : 2000 * t.val + p.val < 50000) :
    (iblk1 V c 2 t : Vec Ideal S2000x256 .f32) (ix2 p q) = (V c main_v7_2 : S50000x256.Idx → EReal) (ix2 ⟨2000 * t.val + p.val, hp⟩ q) := by
  obtain ⟨-, -, ⟨e0, e1⟩, -⟩ := idx1 t
  unfold iblk1
  rw [View.read_apply]
  show V c main_v7_2 _ = V c main_v7_2 _
  refine congrArg (V c main_v7_2) (funext fun a => Fin.ext ?_)
  match a with
  | ⟨0, _⟩ => show win1_2.index t (0 : Fin 2) * 2000 + 1 * p.val = 2000 * t.val + p.val; rw [e0]; omega
  | ⟨1, _⟩ => show win1_2.index t (1 : Fin 2) * 256 + 1 * q.val = q.val; rw [e1]; omega

/-- The bias row's one block is the row. -/
theorem row_bias (c : Dev nD) (t : Fin cfg1.N) (q : Fin 256) :
    (iblk1 V c 3 t : Vec Ideal S1x256 .f32) (ix2 (0 : Fin 1) q) = (V c main_arg7 : S1x256.Idx → EReal) (ix2 (0 : Fin 1) q) := by
  obtain ⟨-, -, -, ⟨e0, e1⟩, -⟩ := idx1 t
  unfold iblk1
  rw [View.read_apply]
  show V c main_arg7 _ = V c main_arg7 _
  refine congrArg (V c main_arg7) (funext fun a => Fin.ext ?_)
  match a with
  | ⟨0, _⟩ => show win1_3.index t (0 : Fin 2) * 1 + 1 * (0 : Fin 1).val = (0 : Fin 1).val; rw [e0]; rfl
  | ⟨1, _⟩ => show win1_3.index t (1 : Fin 2) * 256 + 1 * q.val = q.val; rw [e1]; omega

/-! ## The first output: the centre -/

/-- Entry (p, q) of point t's block of the first output is entry (2000 t + p, q) of the array. -/
theorem emb4 (t : Fin cfg1.N) (p : Fin 2000) (q : Fin 256) (hp : 2000 * t.val + p.val < 50000) :
    ((cfg1.win 4).blk t).view.emb (ix2 p q) = (ix2 ⟨2000 * t.val + p.val, hp⟩ q : S50000x256.Idx) := by
  obtain ⟨-, -, -, -, ⟨e0, e1⟩, -⟩ := idx1 t
  refine funext fun a => Fin.ext ?_
  match a with
  | ⟨0, _⟩ => show win1_4.index t (0 : Fin 2) * 2000 + 1 * p.val = 2000 * t.val + p.val; rw [e0]; omega
  | ⟨1, _⟩ => show win1_4.index t (1 : Fin 2) * 256 + 1 * q.val = q.val; rw [e1]; omega

/-- What point t writes back to the first output is its row block of the centre. -/
theorem flushed4_eq (c : Dev nD) (t : Fin cfg1.N) :
    (dat1 V c).flushed 4 t = ((cfg1.win 4).blk t).view.read (Elt Ideal) (centre (V c main_v20) (V c main_arg7)) := by
  show (cfg1.win 4).cut (grid1.coords t) ((dat1 V c).after 4 t) = _
  rw [after1_4]
  unfold out1_4
  rw [View.canon_unit_zero hz]
  simp only [View.ld_unit_zero (S := S2000x256) hz, View.ld_unit_zero (S := S1x256) hz]
  funext j
  obtain ⟨p, q, rfl⟩ : ∃ (p : Fin 2000) (q : Fin 256), j = ix2 p q := ⟨j 0, j 1, eq_ix2 j⟩
  have hp : 2000 * t.val + p.val < 50000 := by have := lt25 t; have := p.isLt; omega
  refine (pay_centre _ _ p q).trans ?_
  rw [rows_agg V c t p q hp, row_bias V c t q, View.read_apply, emb4 t p q hp]
  rfl

theorem mem_blk4 (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v21_0).slice (win1_4.rect t)).set ↔ _
  rw [View.set_slice_whole, Rect.mem_set_unit]
  exact Iff.rfl

/-- Row i₀ of the first output lies in the block of point i₀ / 2000. -/
theorem cover4 (i : S50000x256.Idx) : ∃ t : Fin cfg1.N, (cfg1.win 4).flush t = true ∧ i ∈ ((cfg1.win 4).blk t).view.set := by
  have h0 : (i 0).val < 50000 := (i 0).isLt
  have h1 : (i 1).val < 256 := (i 1).isLt
  have ht : (i 0).val / 2000 < cfg1.N := by have e : cfg1.N = 25 := N_1; omega
  obtain ⟨-, -, -, -, ⟨e0, e1⟩, -⟩ := idx1 ⟨(i 0).val / 2000, ht⟩
  refine ⟨⟨(i 0).val / 2000, ht⟩, flush1_4 _, ?_⟩
  rw [mem_blk4]
  intro a
  match a with
  | ⟨0, _⟩ =>
    show win1_4.index ⟨(i 0).val / 2000, ht⟩ (0 : Fin 2) * 2000 ≤ (i 0).val ∧ (i 0).val < win1_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, ht⟩ (1 : Fin 2) * 256 ≤ (i 1).val ∧ (i 1).val < win1_4.index ⟨(i 0).val / 2000, ht⟩ (1 : Fin 2) * 256 + 256
    rw [e1]; omega

/-- The first output array ends holding the centre of the region's entry contents. -/
theorem final4 (c : Dev nD) : (dat1 V c).arrAt 4 cfg1.N = centre (V c main_v20) (V c main_arg7) :=
  (dat1 V c).arrAt_eq_of_cover 4 _ (fun t _ => flushed4_eq V c t) cover4

/-! ## The second output: the centre minus the left scope -/

/-- The second output's blocks sit where the first's do: rows 2000 t + p. -/
theorem emb5 (t : Fin cfg1.N) (p : Fin 2000) (q : Fin 256) (hp : 2000 * t.val + p.val < 50000) :
    ((cfg1.win 5).blk t).view.emb (ix2 p q) = (ix2 ⟨2000 * t.val + p.val, hp⟩ q : S50000x256.Idx) := by
  obtain ⟨-, -, -, -, -, ⟨e0, e1⟩, -⟩ := idx1 t
  refine funext fun a => Fin.ext ?_
  match a with
  | ⟨0, _⟩ => show win1_5.index t (0 : Fin 2) * 2000 + 1 * p.val = 2000 * t.val + p.val; rw [e0]; omega
  | ⟨1, _⟩ => show win1_5.index t (1 : Fin 2) * 256 + 1 * q.val = q.val; rw [e1]; omega

/-- What point t writes back to the second output is its row block of the lower table: the stored value reads the
    aggregated rows, the bias row and the left scope's rows. -/
theorem flushed5_eq (c : Dev nD) (t : Fin cfg1.N) :
    (dat1 V c).flushed 5 t = ((cfg1.win 5).blk t).view.read (Elt Ideal) (lower (V c main_v20) (V c main_arg7) (V c main_v7_1)) := by
  show (cfg1.win 5).cut (grid1.coords t) ((dat1 V c).after 5 t) = _
  rw [after1_5]
  unfold out1_5
  rw [View.canon_unit_zero hz]
  simp only [View.ld_unit_zero (S := S2000x256) hz, View.ld_unit_zero (S := S1x256) hz]
  funext j
  obtain ⟨p, q, rfl⟩ : ∃ (p : Fin 2000) (q : Fin 256), j = ix2 p q := ⟨j 0, j 1, eq_ix2 j⟩
  have hp : 2000 * t.val + p.val < 50000 := by have := lt25 t; have := p.isLt; omega
  refine (pay_lower _ _ _ p q).trans ?_
  rw [rows_agg V c t p q hp, row_bias V c t q, rows_left V c t p q hp, View.read_apply, emb5 t p q hp]
  rfl

theorem mem_blk5 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v21_1).slice (win1_5.rect t)).set ↔ _
  rw [View.set_slice_whole, Rect.mem_set_unit]
  exact Iff.rfl

/-- Row i₀ of the second output lies in the block of point i₀ / 2000. -/
theorem cover5 (i : S50000x256.Idx) : ∃ t : Fin cfg1.N, (cfg1.win 5).flush t = true ∧ i ∈ ((cfg1.win 5).blk t).view.set := by
  have h0 : (i 0).val < 50000 := (i 0).isLt
  have h1 : (i 1).val < 256 := (i 1).isLt
  have ht : (i 0).val / 2000 < cfg1.N := by have e : cfg1.N = 25 := N_1; omega
  obtain ⟨-, -, -, -, -, ⟨e0, e1⟩, -⟩ := idx1 ⟨(i 0).val / 2000, ht⟩
  refine ⟨⟨(i 0).val / 2000, ht⟩, flush1_5 _, ?_⟩
  rw [mem_blk5]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 256 ≤ (i 1).val ∧ (i 1).val < win1_5.index ⟨(i 0).val / 2000, ht⟩ (1 : Fin 2) * 256 + 256
    rw [e1]; omega

/-- The second output array ends holding the lower table of the region's entry contents. -/
theorem final5 (c : Dev nD) : (dat1 V c).arrAt 5 cfg1.N = lower (V c main_v20) (V c main_arg7) (V c main_v7_1) :=
  (dat1 V c).arrAt_eq_of_cover 5 _ (fun t _ => flushed5_eq V c t) cover5

/-! ## The third output: the centre plus the right scope -/

/-- The third output's blocks sit on the same rows. -/
theorem emb6 (t : Fin cfg1.N) (p : Fin 2000) (q : Fin 256) (hp : 2000 * t.val + p.val < 50000) :
    ((cfg1.win 6).blk t).view.emb (ix2 p q) = (ix2 ⟨2000 * t.val + p.val, hp⟩ q : S50000x256.Idx) := by
  obtain ⟨-, -, -, -, -, -, ⟨e0, e1⟩⟩ := idx1 t
  refine funext fun a => Fin.ext ?_
  match a with
  | ⟨0, _⟩ => show win1_6.index t (0 : Fin 2) * 2000 + 1 * p.val = 2000 * t.val + p.val; rw [e0]; omega
  | ⟨1, _⟩ => show win1_6.index t (1 : Fin 2) * 256 + 1 * q.val = q.val; rw [e1]; omega

/-- What point t writes back to the third output is its row block of the upper table: the stored value reads the
    aggregated rows, the bias row and the right scope's rows. -/
theorem flushed6_eq (c : Dev nD) (t : Fin cfg1.N) :
    (dat1 V c).flushed 6 t = ((cfg1.win 6).blk t).view.read (Elt Ideal) (upper (V c main_v20) (V c main_arg7) (V c main_v7_2)) := by
  show (cfg1.win 6).cut (grid1.coords t) ((dat1 V c).after 6 t) = _
  rw [after1_6]
  unfold out1_6
  rw [View.canon_unit_zero hz]
  simp only [View.ld_unit_zero (S := S2000x256) hz, View.ld_unit_zero (S := S1x256) hz]
  funext j
  obtain ⟨p, q, rfl⟩ : ∃ (p : Fin 2000) (q : Fin 256), j = ix2 p q := ⟨j 0, j 1, eq_ix2 j⟩
  have hp : 2000 * t.val + p.val < 50000 := by have := lt25 t; have := p.isLt; omega
  refine (pay_upper _ _ _ p q).trans ?_
  rw [rows_agg V c t p q hp, row_bias V c t q, rows_right V c t p q hp, View.read_apply, emb6 t p q hp]
  rfl

theorem mem_blk6 (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v21_2).slice (win1_6.rect t)).set ↔ _
  rw [View.set_slice_whole, Rect.mem_set_unit]
  exact Iff.rfl

/-- Row i₀ of the third output lies in the block of point i₀ / 2000. -/
theorem cover6 (i : S50000x256.Idx) : ∃ t : Fin cfg1.N, (cfg1.win 6).flush t = true ∧ i ∈ ((cfg1.win 6).blk t).view.set := by
  have h0 : (i 0).val < 50000 := (i 0).isLt
  have h1 : (i 1).val < 256 := (i 1).isLt
  have ht : (i 0).val / 2000 < cfg1.N := by have e : cfg1.N = 25 := N_1; omega
  obtain ⟨-, -, -, -, -, -, ⟨e0, e1⟩⟩ := idx1 ⟨(i 0).val / 2000, ht⟩
  refine ⟨⟨(i 0).val / 2000, ht⟩, flush1_6 _, ?_⟩
  rw [mem_blk6]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, ht⟩ (1 : Fin 2) * 256 ≤ (i 1).val ∧ (i 1).val < win1_6.index ⟨(i 0).val / 2000, ht⟩ (1 : Fin 2) * 256 + 256
    rw [e1]; omega

/-- The third output array ends holding the upper table of the region's entry contents. -/
theorem final6 (c : Dev nD) : (dat1 V c).arrAt 6 cfg1.N = upper (V c main_v20) (V c main_arg7) (V c main_v7_2) :=
  (dat1 V c).arrAt_eq_of_cover 6 _ (fun t _ => flushed6_eq V c t) cover6

end Cert.KernelIdeal.Combine

end
-- ==== Proof.Stretches.lean ====
/-
  The host operations around the two grid regions, read through. Before the first region the program clamps the two scope
  weight tables and the two scope bias rows at zero from below (relu: the maximum with a table of zeros) and rounds the three
  weight tables to a narrower float format; so the first region is entered with the feature table as launched, the first
  weight table rounded, the two clamped tables rounded, and the two clamped rows. Between the regions it wraps negative
  column numbers (adding 50000), gathers the rows of the first region's first output at those numbers, scales row e by
  value e, and adds the scaled rows into a table of zeros at the row numbers (a segment sum); so the second region is entered
  with that aggregated table, the first region's other two outputs as it left them, and the bias row as launched. The
  gather and the segment sum are kept as the operations they are: nothing here opens them.
-/
import proofs.«157194_j31318901522778_1_alg».proof.Proof.Gen.KernelIdeal.Frame
import Idealize.ShloMosaic.Lib.StableHlo.Run
import Idealize.ShloMosaic.PureOps.Ideal

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

/-- A weight table clamped at zero from below. -/
abbrev reluTable (w : (⟨S512x256, .f32⟩ : BufTy).Contents (Elt Ideal)) : (⟨S512x256, .f32⟩ : BufTy).Contents (Elt Ideal) :=
  maximumf w (broadcastInDim S512x256 ![] bcast_S_S512x256 (constant (F := Ideal) S_ .f32 0x00000000#32))

/-- A bias row clamped at zero from below. -/
abbrev reluRow (b : (⟨S1x256, .f32⟩ : BufTy).Contents (Elt Ideal)) : (⟨S1x256, .f32⟩ : BufTy).Contents (Elt Ideal) :=
  maximumf b (broadcastInDim S1x256 ![] bcast_S_S1x256 (constant (F := Ideal) S_ .f32 0x00000000#32))

/-- The stretch between the regions, as a function of the table it gathers from and of the three edge arrays: row e of the
    update is value e times the row of the table at column number e (a negative number wrapped by 50000), and the result
    adds update row e into row number e of a table of zeros. -/
def aggregate (A : (⟨S50000x256, .f32⟩ : BufTy).Contents (Elt Ideal)) (rows cols : (⟨S800000, .i32⟩ : BufTy).Contents (Elt Ideal))
    (vals : (⟨S800000, .f32⟩ : BufTy).Contents (Elt Ideal)) : (⟨S50000x256, .f32⟩ : BufTy).Contents (Elt Ideal) :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 rows)
    (mulf (broadcastInDim S800000x256 ![0, 1] bcast_S800000x1_S800000x256_0_1 (broadcastInDim S800000x1 ![0] bcast_S800000_S800000x1_0 vals))
      (Host.gather gather_S50000x256_S800000x1_S800000x256_1_0_n_n_0_1_1256 A
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

variable (m : (ℓ : Loc nD τ sig) → Buf (Elt Ideal) ℓ) (ρ : Dev nD → PrngReg)

/-! ## What the first region is entered with -/

theorem entry_x (c : Dev nD) : V5 m ρ c main_arg0 = m ((c : Thread nD τ).loc main_arg0) := by
  dsimp only [V5, W5, W4, W3, W2, W1, hostOps0_4, hostOps0_3, hostOps0_2, hostOps0_1, hostOps0]
  after_results

theorem entry_w (c : Dev nD) :
    V5 m ρ c main_v4 = (truncf .bf16 (m ((c : Thread nD τ).loc main_arg4) : FVec Ideal S512x256 .f32) bitsLt_bf16_f32 : FVec Ideal S512x256 .bf16) := by
  dsimp only [V5, W5, W4, W3, W2, W1, hostOps0_4, hostOps0_3, hostOps0_2, hostOps0_1, hostOps0]
  after_results

theorem entry_wl (c : Dev nD) :
    V5 m ρ c main_v5 = (truncf .bf16 (reluTable (m ((c : Thread nD τ).loc main_arg5)) : FVec Ideal S512x256 .f32) bitsLt_bf16_f32 : FVec Ideal S512x256 .bf16) := by
  dsimp only [V5, W5, W4, W3, W2, W1, hostOps0_4, hostOps0_3, hostOps0_2, hostOps0_1, hostOps0]
  after_results
  rfl

theorem entry_wr (c : Dev nD) :
    V5 m ρ c main_v6 = (truncf .bf16 (reluTable (m ((c : Thread nD τ).loc main_arg6)) : FVec Ideal S512x256 .f32) bitsLt_bf16_f32 : FVec Ideal S512x256 .bf16) := by
  dsimp only [V5, W5, W4, W3, W2, W1, hostOps0_4, hostOps0_3, hostOps0_2, hostOps0_1, hostOps0]
  after_results
  rfl

theorem entry_bl (c : Dev nD) : V5 m ρ c main_v2 = reluRow (m ((c : Thread nD τ).loc main_arg8)) := by
  dsimp only [V5, W5, W4, W3, W2, W1, hostOps0_4, hostOps0_3, hostOps0_2, hostOps0_1, hostOps0]
  after_results
  rfl

theorem entry_br (c : Dev nD) : V5 m ρ c main_v3 = reluRow (m ((c : Thread nD τ).loc main_arg9)) := by
  dsimp only [V5, W5, W4, W3, W2, W1, hostOps0_4, hostOps0_3, hostOps0_2, hostOps0_1, hostOps0]
  after_results
  rfl

/-! ## What the first region leaves of the buffers the second stretch reads -/

/-- The edge arrays and the bias row are no window of the first region: it leaves them as launched. -/
theorem left_rows (c : Dev nD) : W6 m ρ c (Proc.devRef .tc main_arg1) = m ((c : Thread nD τ).loc main_arg1) := by
  refine (W6_of_ne m ρ c main_arg1 (by decide)).trans ?_
  dsimp only [W5, W4, W3, W2, W1, hostOps0_4, hostOps0_3, hostOps0_2, hostOps0_1, hostOps0]
  after_results

theorem left_cols (c : Dev nD) : W6 m ρ c (Proc.devRef .tc main_arg2) = m ((c : Thread nD τ).loc main_arg2) := by
  refine (W6_of_ne m ρ c main_arg2 (by decide)).trans ?_
  dsimp only [W5, W4, W3, W2, W1, hostOps0_4, hostOps0_3, hostOps0_2, hostOps0_1, hostOps0]
  after_results

theorem left_vals (c : Dev nD) : W6 m ρ c (Proc.devRef .tc main_arg3) = m ((c : Thread nD τ).loc main_arg3) := by
  refine (W6_of_ne m ρ c main_arg3 (by decide)).trans ?_
  dsimp only [W5, W4, W3, W2, W1, hostOps0_4, hostOps0_3, hostOps0_2, hostOps0_1, hostOps0]
  after_results

theorem left_bias (c : Dev nD) : W6 m ρ c (Proc.devRef .tc main_arg7) = m ((c : Thread nD τ).loc main_arg7) := by
  refine (W6_of_ne m ρ c main_arg7 (by decide)).trans ?_
  dsimp only [W5, W4, W3, W2, W1, hostOps0_4, hostOps0_3, hostOps0_2, hostOps0_1, hostOps0]
  after_results

/-! ## The stretch between the regions, from any contents -/

section Through

variable (W : Valuation τ sig (Elt Ideal))

/-- From any contents W the stretch leaves, in its last buffer, its operations applied to W's table and edge arrays. -/
theorem through_agg :
    StableHlo.after hostOps1 W (Proc.devRef .tc main_v20)
      = aggregate (W (Proc.devRef .tc main_v7_0)) (W (Proc.devRef .tc main_arg1)) (W (Proc.devRef .tc main_arg2)) (W (Proc.devRef .tc main_arg3)) := by
  dsimp only [hostOps1]
  after_results_simp
  rfl

/-- It writes none of the first region's other two outputs, nor the bias row. -/
theorem through_left : StableHlo.after hostOps1 W (Proc.devRef .tc main_v7_1) = W (Proc.devRef .tc main_v7_1) := by
  dsimp only [hostOps1]
  after_results_simp

theorem through_right : StableHlo.after hostOps1 W (Proc.devRef .tc main_v7_2) = W (Proc.devRef .tc main_v7_2) := by
  dsimp only [hostOps1]
  after_results_simp

theorem through_bias : StableHlo.after hostOps1 W (Proc.devRef .tc main_arg7) = W (Proc.devRef .tc main_arg7) := by
  dsimp only [hostOps1]
  after_results_simp

end Through

/-! ## What the second region is entered with -/

/-- The aggregated table: the stretch's operations applied to the first region's first output and the edge arrays. -/
theorem entry_agg (c : Dev nD) :
    V7 m ρ c main_v20 = aggregate ((dat0 (V5 m ρ) c).arrAt 6 cfg0.N) (m ((c : Thread nD τ).loc main_arg1)) (m ((c : Thread nD τ).loc main_arg2)) (m ((c : Thread nD τ).loc main_arg3)) := by
  show StableHlo.after hostOps1 (W6 m ρ c) (Proc.devRef .tc main_v20) = _
  rw [through_agg, left_rows m ρ c, left_cols m ρ c, left_vals m ρ c,
    (W6_arr m ρ c 6 : W6 m ρ c (Proc.devRef .tc main_v7_0) = (dat0 (V5 m ρ) c).arrAt 6 cfg0.N)]

/-- The first region's second output, untouched by the stretch. -/
theorem entry_left (c : Dev nD) : V7 m ρ c main_v7_1 = (dat0 (V5 m ρ) c).arrAt 7 cfg0.N := by
  show StableHlo.after hostOps1 (W6 m ρ c) (Proc.devRef .tc main_v7_1) = _
  rw [through_left]
  exact W6_arr m ρ c 7

/-- The first region's third output, untouched by the stretch. -/
theorem entry_right (c : Dev nD) : V7 m ρ c main_v7_2 = (dat0 (V5 m ρ) c).arrAt 8 cfg0.N := by
  show StableHlo.after hostOps1 (W6 m ρ c) (Proc.devRef .tc main_v7_2) = _
  rw [through_right]
  exact W6_arr m ρ c 8

/-- The bias row as launched. -/
theorem entry_bias (c : Dev nD) : V7 m ρ c main_arg7 = m ((c : Thread nD τ).loc main_arg7) := by
  show StableHlo.after hostOps1 (W6 m ρ c) (Proc.devRef .tc main_arg7) = _
  rw [through_bias]
  exact left_bias m ρ c

end Cert.KernelIdeal.Stretch

end
-- ==== Proof.Layer.lean ====
/-
  The idealized kernel's three results as functions of its argument arrays. Write x for the feature table, rows, cols, vals for
  the edge arrays, wb, wa, wc for the weight tables and bb, ba, bc for the bias rows. The first region leaves x·wb, and the two
  scope tables |x|·relu wa + relu ba and |x|·relu wc + relu bc; the stretch between the regions gathers, scales and segment-sums
  the rows of x·wb into the aggregated table; the second region adds the bias row bb along every row of it (the centre) and
  subtracts the left scope from, and adds the right scope to, the centre. Each step is the closed form of its region or the
  stretch read through, composed.
-/
import proofs.«157194_j31318901522778_1_alg».proof.Proof.KernelRun
import proofs.«157194_j31318901522778_1_alg».proof.Proof.DenseBlocks
import proofs.«157194_j31318901522778_1_alg».proof.Proof.Combine
import proofs.«157194_j31318901522778_1_alg».proof.Proof.Stretches

set_option maxRecDepth 16384

noncomputable section

namespace Cert.KernelIdeal.Layer

open Cert.KernelIdeal Cert.KernelIdeal.Gen Cert.Spec Cert.KernelIdeal.Stretch
open Idealize.ShloMosaic Idealize.ShloMosaic.TcCoe Idealize.SL.Sem

/-- The aggregated table plus the bias row along every row. -/
def centreOf (x : (⟨S50000x512, .f32⟩ : BufTy).Contents (Elt Ideal)) (rows cols : (⟨S800000, .i32⟩ : BufTy).Contents (Elt Ideal))
    (vals : (⟨S800000, .f32⟩ : BufTy).Contents (Elt Ideal)) (wb : (⟨S512x256, .f32⟩ : BufTy).Contents (Elt Ideal))
    (bb : (⟨S1x256, .f32⟩ : BufTy).Contents (Elt Ideal)) : (⟨S50000x256, .f32⟩ : BufTy).Contents (Elt Ideal) :=
  centre (aggregate (prod x wb) rows cols vals) bb

/-- The centre minus the left scope. -/
def lowerOf (x : (⟨S50000x512, .f32⟩ : BufTy).Contents (Elt Ideal)) (rows cols : (⟨S800000, .i32⟩ : BufTy).Contents (Elt Ideal))
    (vals : (⟨S800000, .f32⟩ : BufTy).Contents (Elt Ideal)) (wb wa : (⟨S512x256, .f32⟩ : BufTy).Contents (Elt Ideal))
    (bb ba : (⟨S1x256, .f32⟩ : BufTy).Contents (Elt Ideal)) : (⟨S50000x256, .f32⟩ : BufTy).Contents (Elt Ideal) :=
  lower (aggregate (prod x wb) rows cols vals) bb (scope x (reluTable wa) (reluRow ba))

/-- The centre plus the right scope. -/
def upperOf (x : (⟨S50000x512, .f32⟩ : BufTy).Contents (Elt Ideal)) (rows cols : (⟨S800000, .i32⟩ : BufTy).Contents (Elt Ideal))
    (vals : (⟨S800000, .f32⟩ : BufTy).Contents (Elt Ideal)) (wb wc : (⟨S512x256, .f32⟩ : BufTy).Contents (Elt Ideal))
    (bb bc : (⟨S1x256, .f32⟩ : BufTy).Contents (Elt Ideal)) : (⟨S50000x256, .f32⟩ : BufTy).Contents (Elt Ideal) :=
  upper (aggregate (prod x wb) rows cols vals) bb (scope x (reluTable wc) (reluRow bc))

variable (m : (ℓ : Loc nD τ sig) → Buf (Elt Ideal) ℓ) (ρ : Dev nD → PrngReg)

/-- The first result: the second region's first output, entered at what the first region and the stretch leave. -/
theorem result0 (c : Dev nD) :
    (dat1 (V7 m ρ) c).arrAt 4 cfg1.N
      = centreOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg7)) := by
  rw [Combine.final4 (V7 m ρ) c, entry_agg m ρ c, entry_bias m ρ c, Dense.final6 (V5 m ρ) c, entry_x m ρ c, entry_w m ρ c]
  rfl

/-- The second result. -/
theorem result1 (c : Dev nD) :
    (dat1 (V7 m ρ) c).arrAt 5 cfg1.N
      = lowerOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg7)) (m ((c : Thread nD τ).loc main_arg8)) := by
  rw [Combine.final5 (V7 m ρ) c, entry_agg m ρ c, entry_bias m ρ c, entry_left m ρ c, Dense.final6 (V5 m ρ) c, Dense.final7 (V5 m ρ) c,
    entry_x m ρ c, entry_w m ρ c, entry_wl m ρ c, entry_bl m ρ c]
  rfl

/-- The third result. -/
theorem result2 (c : Dev nD) :
    (dat1 (V7 m ρ) c).arrAt 6 cfg1.N
      = upperOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg6))
          (m ((c : Thread nD τ).loc main_arg7)) (m ((c : Thread nD τ).loc main_arg9)) := by
  rw [Combine.final6 (V7 m ρ) c, entry_agg m ρ c, entry_bias m ρ c, entry_right m ρ c, Dense.final6 (V5 m ρ) c, Dense.final8 (V5 m ρ) c,
    entry_x m ρ c, entry_w m ρ c, entry_wr m ρ c, entry_br m ρ c]
  rfl

/-- The run, read: every weakly fair execution terminates with the three results at these functions of the arguments as
    launched, and the arguments unchanged. -/
theorem run : θ_run defs (onTc (τ := τ) (main (F := Ideal))) ⟨m, fun _ => 0, ρ⟩ (fun r => ∀ c : Dev nD,
      r.2.mem ((c.tc : Thread nD τ).loc main_v21_0)
        = centreOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg7))
      ∧ r.2.mem ((c.tc : Thread nD τ).loc main_v21_1)
        = lowerOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg7)) (m ((c : Thread nD τ).loc main_arg8))
      ∧ r.2.mem ((c.tc : Thread nD τ).loc main_v21_2)
        = upperOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg6))
            (m ((c : Thread nD τ).loc main_arg7)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono
    (fun r h c => ⟨(h c).1.trans (result0 m ρ c), (h c).2.1.trans (result1 m ρ c), (h c).2.2.1.trans (result2 m ρ c), (h c).2.2.2⟩)
    (Cert.KernelIdeal.Named.run m ρ)

end Cert.KernelIdeal.Layer

end
-- ==== Proof.LibBroadcastLayout.lean ====
/-
  Two host broadcasts read at an index given by coordinates: a column `[n, 1]` and a row `[1, d]`, each placed along
  both axes of `[n, d]`. The column's copy reads the column's entry of the same row; the row's copy reads the row's
  entry of the same position in the row.
-/
import Idealize.ShloMosaic.Lib.Pipeline.Value
import Idealize.ShloMosaic.Lib.ValueIdx

namespace Cert.BroadcastLayout

open Idealize.ShloMosaic Idealize.ShloMosaic.ValueIdx

variable {α : Type}

/-- A column `[n, 1]` placed along both axes of `[n, d]` reads, at `(p, q)`, the column's entry of row `p`. -/
theorem broadcastInDim_col_apply {n d : ℕ} (v : (⟨2, ![n, 1]⟩ : Shape).Idx → α)
    (h : (⟨2, ![n, 1]⟩ : Shape).BroadcastsInDim ⟨2, ![n, d]⟩ ![0, 1]) (p : Fin n) (q : Fin d) :
    broadcastInDim ⟨2, ![n, d]⟩ ![0, 1] h v (ix2 p q) = v (ix2 p (0 : Fin 1)) := by
  refine broadcastInDim_apply _ h v (ix2 p q) (ix2 p (0 : Fin 1)) fun a => ?_
  match a with
  | ⟨0, _⟩ =>
    show p.val = if n = 1 then 0 else p.val
    split
    · have := p.isLt; omega
    · rfl
  | ⟨1, _⟩ => rfl

/-- A row `[1, d]` placed along both axes of `[n, d]` reads, at `(p, q)`, the row's entry at `q`. -/
theorem broadcastInDim_row_apply {n d : ℕ} (v : (⟨2, ![1, d]⟩ : Shape).Idx → α)
    (h : (⟨2, ![1, d]⟩ : Shape).BroadcastsInDim ⟨2, ![n, d]⟩ ![0, 1]) (p : Fin n) (q : Fin d) :
    broadcastInDim ⟨2, ![n, d]⟩ ![0, 1] h v (ix2 p q) = v (ix2 (0 : Fin 1) q) := by
  refine broadcastInDim_apply _ h v (ix2 p q) (ix2 (0 : Fin 1) q) fun a => ?_
  match a with
  | ⟨0, _⟩ => rfl
  | ⟨1, _⟩ =>
    show q.val = if d = 1 then 0 else q.val
    split
    · have := q.isLt; omega
    · rfl

end Cert.BroadcastLayout
-- ==== Proof.Bridge.lean ====
/-
  The reference's three results are the kernel's three functions of the arguments. The reference multiplies the whole feature
  table by the first weight table in one contraction, gathers, scales and segment-sums its rows with the same operations
  and the same dimension numbers as the kernel's program, and adds the bias row along every row: entry by entry that is the
  centre. Its scope tables are one contraction of the table of absolute values with a clamped weight table plus the clamped
  bias row along every row: entry by entry the kernel's scope. A contraction over the second axis of the left table and the
  first of the right is, at (r, c), the sum over k of left (r, k) · right (k, c); the absolute value and the clamp are the same
  functions on extended reals in both programs.
-/
import proofs.«157194_j31318901522778_1_alg».proof.Proof.Layer
import proofs.«157194_j31318901522778_1_alg».proof.Proof.Gen.ReferenceIdeal.Read
import proofs.«157194_j31318901522778_1_alg».proof.Proof.LibDenseRows
import proofs.«157194_j31318901522778_1_alg».proof.Proof.LibBroadcastLayout

set_option maxRecDepth 16384

noncomputable section

namespace Cert.Bridge

open Idealize.ShloMosaic Idealize.ShloMosaic.ValueIdx Cert.Spec
open Cert.KernelIdeal.Layer Cert.KernelIdeal.Stretch
open Cert.KernelIdeal (S50000x512 S800000 S512x256 S1x256 S50000x256)

/-- The reference's contraction of two whole tables is the product, entry by entry. -/
theorem dot_is_prod (x : FVec Ideal S50000x512 .f32) (w : FVec Ideal S512x256 .f32) :
    (Host.dotGeneral (F := Ideal) Cert.ReferenceIdeal.dot_S50000x512_S512x256_S50000x256_1_0_0_1_n_n none x w
        : FVec Ideal S50000x256 .f32) = prod x w := by
  funext i
  obtain ⟨r, q, rfl⟩ : ∃ (r : Fin 50000) (q : Fin 256), i = ix2 r q := ⟨i 0, i 1, eq_ix2 i⟩
  exact (Cert.DenseRows.dotGeneral_plain_apply Cert.ReferenceIdeal.dot_S50000x512_S512x256_S50000x256_1_0_0_1_n_n rfl rfl rfl rfl
    Cert.ReferenceIdeal.Read.lhs_main_v4_0 Cert.ReferenceIdeal.Read.rhs_main_v4_1 x w r q).trans (prod_ix2 x w r q).symm

/-- The reference's segment sum of the scaled gathered rows is the kernel program's stretch applied to the product: the
    same operations with the same dimension numbers, in the same order. -/
theorem agg_eq (x : (⟨S50000x512, .f32⟩ : BufTy).Contents (Elt Ideal)) (rows cols : (⟨S800000, .i32⟩ : BufTy).Contents (Elt Ideal))
    (vals : (⟨S800000, .f32⟩ : BufTy).Contents (Elt Ideal)) (wb : (⟨S512x256, .f32⟩ : BufTy).Contents (Elt Ideal)) :
    Cert.ReferenceIdeal.Read.val_main_v17 (F := Ideal) x rows cols vals wb = aggregate (prod x wb) rows cols vals := by
  unfold Cert.ReferenceIdeal.Read.val_main_v17 Cert.ReferenceIdeal.Read.val_main_v14 Cert.ReferenceIdeal.Read.val_main_v12
    Cert.ReferenceIdeal.Read.val_main_v4
  rw [dot_is_prod]
  rfl

/-- The reference's first result is the centre. -/
theorem centre_eq (x : (⟨S50000x512, .f32⟩ : BufTy).Contents (Elt Ideal)) (rows cols : (⟨S800000, .i32⟩ : BufTy).Contents (Elt Ideal))
    (vals : (⟨S800000, .f32⟩ : BufTy).Contents (Elt Ideal)) (wb : (⟨S512x256, .f32⟩ : BufTy).Contents (Elt Ideal))
    (bb : (⟨S1x256, .f32⟩ : BufTy).Contents (Elt Ideal)) :
    Cert.ReferenceIdeal.Read.val_main_v19 (F := Ideal) x rows cols vals wb bb = centreOf x rows cols vals wb bb := by
  funext i
  obtain ⟨r, q, rfl⟩ : ∃ (r : Fin 50000) (q : Fin 256), i = ix2 r q := ⟨i 0, i 1, eq_ix2 i⟩
  unfold Cert.ReferenceIdeal.Read.val_main_v19 Cert.ReferenceIdeal.Read.val_main_v18
  rw [addf_apply, agg_eq, Cert.BroadcastLayout.broadcastInDim_row_apply]
  rfl

/-- The reference's left scope table is the kernel's. -/
theorem scope_left_eq (x : (⟨S50000x512, .f32⟩ : BufTy).Contents (Elt Ideal)) (wa : (⟨S512x256, .f32⟩ : BufTy).Contents (Elt Ideal))
    (ba : (⟨S1x256, .f32⟩ : BufTy).Contents (Elt Ideal)) :
    Cert.ReferenceIdeal.Read.val_main_v23 (F := Ideal) x wa ba = scope x (reluTable wa) (reluRow ba) := by
  funext i
  obtain ⟨r, q, rfl⟩ : ∃ (r : Fin 50000) (q : Fin 256), i = ix2 r q := ⟨i 0, i 1, eq_ix2 i⟩
  unfold Cert.ReferenceIdeal.Read.val_main_v23 Cert.ReferenceIdeal.Read.val_main_v21 Cert.ReferenceIdeal.Read.val_main_v22
  rw [addf_apply, dot_is_prod, Cert.BroadcastLayout.broadcastInDim_row_apply]
  rfl

/-- The reference's right scope table is the kernel's. -/
theorem scope_right_eq (x : (⟨S50000x512, .f32⟩ : BufTy).Contents (Elt Ideal)) (wc : (⟨S512x256, .f32⟩ : BufTy).Contents (Elt Ideal))
    (bc : (⟨S1x256, .f32⟩ : BufTy).Contents (Elt Ideal)) :
    Cert.ReferenceIdeal.Read.val_main_v26 (F := Ideal) x wc bc = scope x (reluTable wc) (reluRow bc) := by
  funext i
  obtain ⟨r, q, rfl⟩ : ∃ (r : Fin 50000) (q : Fin 256), i = ix2 r q := ⟨i 0, i 1, eq_ix2 i⟩
  unfold Cert.ReferenceIdeal.Read.val_main_v26 Cert.ReferenceIdeal.Read.val_main_v24 Cert.ReferenceIdeal.Read.val_main_v25
  rw [addf_apply, dot_is_prod, Cert.BroadcastLayout.broadcastInDim_row_apply]
  rfl

/-- The reference's second result is the centre minus the left scope. -/
theorem lower_eq (x : (⟨S50000x512, .f32⟩ : BufTy).Contents (Elt Ideal)) (rows cols : (⟨S800000, .i32⟩ : BufTy).Contents (Elt Ideal))
    (vals : (⟨S800000, .f32⟩ : BufTy).Contents (Elt Ideal)) (wb wa : (⟨S512x256, .f32⟩ : BufTy).Contents (Elt Ideal))
    (bb ba : (⟨S1x256, .f32⟩ : BufTy).Contents (Elt Ideal)) :
    Cert.ReferenceIdeal.Read.val_main_v27 (F := Ideal) x rows cols vals wb wa bb ba = lowerOf x rows cols vals wb wa bb ba := by
  funext i
  unfold Cert.ReferenceIdeal.Read.val_main_v27
  rw [subf_apply, centre_eq, scope_left_eq]
  rfl

/-- The reference's third result is the centre plus the right scope. -/
theorem upper_eq (x : (⟨S50000x512, .f32⟩ : BufTy).Contents (Elt Ideal)) (rows cols : (⟨S800000, .i32⟩ : BufTy).Contents (Elt Ideal))
    (vals : (⟨S800000, .f32⟩ : BufTy).Contents (Elt Ideal)) (wb wc : (⟨S512x256, .f32⟩ : BufTy).Contents (Elt Ideal))
    (bb bc : (⟨S1x256, .f32⟩ : BufTy).Contents (Elt Ideal)) :
    Cert.ReferenceIdeal.Read.val_main_v28 (F := Ideal) x rows cols vals wb wc bb bc = upperOf x rows cols vals wb wc bb bc := by
  funext i
  unfold Cert.ReferenceIdeal.Read.val_main_v28
  rw [addf_apply, centre_eq, scope_right_eq]
  rfl

end Cert.Bridge

end
-- ==== Proof.lean ====
/-
  The certificate of a fuzzy graph-convolution layer on 50000 nodes and 800000 edges: a Pallas program of two grid regions
  with a gather and a segment sum between them, against its jnp reference, equal as extended reals.

  Both programs compute, for a feature table x [50000, 512], edge arrays rows, cols, vals, weight tables wb, wa, wc
  [512, 256] and bias rows bb, ba, bc [1, 256]:
    centre = segment_sum (vals · (x·wb)[cols], rows) + bb along every row,
    lower  = centre − (|x|·relu wa + relu ba),      upper = centre + (|x|·relu wc + relu bc).
  The kernel program rounds the matrix products' operands to a narrower float format (the identity on extended reals) and
  computes them 1000 rows at a time, each accumulated from zero, and combines the three tables 2000 rows at a time; the
  reference contracts the whole tables at once. A row block of a product of tables is the product of the row block, no sum is
  regrouped, and the gather and the segment sum are the same operations in both programs, so the two sides are one function of
  the arguments and no law of the extended reals beyond the definitions is used: the precondition (finite inputs) is not
  opened. The frames of the two kernel programs are the generated ones; the reference's frame is its generated run with the
  results dropped; the idealization rewrote nothing, so the kernel program is its own idealization.
-/
import proofs.«157194_j31318901522778_1_alg».proof.Defs
import proofs.«157194_j31318901522778_1_alg».proof.Proof.Gen.Kernel
import proofs.«157194_j31318901522778_1_alg».proof.Proof.Gen.Kernel.Skeleton
import proofs.«157194_j31318901522778_1_alg».proof.Proof.Gen.Kernel.Launch
import proofs.«157194_j31318901522778_1_alg».proof.Proof.Gen.Kernel.Points
import proofs.«157194_j31318901522778_1_alg».proof.Proof.Gen.Kernel.Frame
import proofs.«157194_j31318901522778_1_alg».proof.Proof.Gen.KernelIdeal
import proofs.«157194_j31318901522778_1_alg».proof.Proof.Gen.KernelIdeal.Skeleton
import proofs.«157194_j31318901522778_1_alg».proof.Proof.Gen.KernelIdeal.Launch
import proofs.«157194_j31318901522778_1_alg».proof.Proof.Gen.KernelIdeal.Points
import proofs.«157194_j31318901522778_1_alg».proof.Proof.Gen.KernelIdeal.Frame
import proofs.«157194_j31318901522778_1_alg».proof.Proof.Gen.ReferenceIdeal
import proofs.«157194_j31318901522778_1_alg».proof.Proof.Gen.ReferenceIdeal.Run
import proofs.«157194_j31318901522778_1_alg».proof.Proof.Gen.ReferenceIdeal.Read
import proofs.«157194_j31318901522778_1_alg».proof.Proof.Gen.Pre_finite_inputs
import proofs.«157194_j31318901522778_1_alg».proof.Proof.Layer
import proofs.«157194_j31318901522778_1_alg».proof.Proof.Bridge
import Idealize.ShloMosaic.Adequacy
import Idealize.ShloMosaic.Init

noncomputable section

namespace Cert.Proof

open Idealize.ShloMosaic Idealize.SL.Sem

/-- The kernel program at the word level runs and leaves its arguments as launched. -/
theorem frame_kernel : Cert.frame_Kernel := fun m ρ _ => Cert.Kernel.Gen.frame m ρ

/-- The same program read at extended reals runs and leaves its arguments as launched. -/
theorem frame_kernelIdeal : Cert.frame_KernelIdeal := fun m ρ _ => Cert.KernelIdeal.Gen.frame m ρ

/-- The reference runs and leaves its arguments as launched: its run, the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Nothing was rewritten when the kernel program was idealized. -/
theorem preserves : Cert.preserves_Kernel_KernelIdeal := trivial

/-- From memories agreeing on the ten arguments both programs end with the centre, the lower and the upper table of those
    arguments: the kernel program by its two regions' closed forms composed through the host operations, the reference by its
    run read one operation at a time. -/
theorem algebraic : Cert.algebraic_KernelIdeal_ReferenceIdeal := by
  intro m ρ m' ρ' _ hagree
  refine ⟨_, _, _, Cert.KernelIdeal.Layer.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2.1.trans ?_, (h c).2.2.2⟩
  · rw [Cert.ReferenceIdeal.Read.val_main_v19_eq, Cert.Bridge.centre_eq, a0, a1, a2, a3, a4, a7]
  · rw [Cert.ReferenceIdeal.Read.val_main_v27_eq, Cert.Bridge.lower_eq, a0, a1, a2, a3, a4, a5, a7, a8]
  · rw [Cert.ReferenceIdeal.Read.val_main_v28_eq, Cert.Bridge.upper_eq, a0, a1, a2, a3, a4, a6, a7, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
